-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x1024 : Shape := ⟨2, ![8192, 1024]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192x1024 .f32) (main_arg2 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x8192 : Shape := ⟨2, ![8192, 8192]⟩
abbrev S8192x1024 : Shape := ⟨2, ![8192, 1024]⟩
abbrev S8192 : Shape := ⟨1, ![8192]⟩
abbrev S1024x1024 : Shape := ⟨2, ![1024, 1024]⟩
abbrev S1x8192 : Shape := ⟨2, ![1, 8192]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S8192, .f32⟩
  | .hbm, ⟨3, _⟩ => ⟨S8192x8192, .bf16⟩
  | .hbm, ⟨4, _⟩ => ⟨S8192x1024, .bf16⟩
  | .hbm, ⟨5, _⟩ => ⟨S8192x1024, .bf16⟩
  | .hbm, ⟨6, _⟩ => ⟨S1x8192, .f32⟩
  | .hbm, ⟨7, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192_S1x8192 : S8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S8192, .f32⟩
  | .hbm, ⟨3, _⟩ => ⟨S8192x1024, .f32⟩
  | .hbm, ⟨4, _⟩ => ⟨S8192x8192, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x8192_S8192x1024_S8192x1024_1_0_0_1_n_n_wf : DotDims.WF S8192x8192 S8192x1024 S8192x1024 [1] [0] [0] [1] [] []
  dot_S8192x1024_S8192x1024_S8192x8192_1_1_0_0_n_n_wf : DotDims.WF S8192x1024 S8192x1024 S8192x8192 [1] [1] [0] [0] [] []

variable [Facts₀]

def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.BitsRegion0.lean ====
/-
  The first matrix product's kernel, h = x · W, on a grid of 8 × 8 points (i, k): point (i, k) adds the product of
  block (i, k) of x and block k of W into a 1024 × 1024 accumulator that lives in a scratch buffer of the kernel's
  own, zeroed at k = 0 and written out (to block i of h) at k = 7. This module states, for any float instance,
  what the accumulator holds after every point (by recursion on the point), runs the kernel's body in each of the
  three situations a point can be in (k = 0, 0 < k < 7, k = 7), and concludes that the body meets its obligation
  at every point under the invariant "the scratch buffer holds the accumulator of the point before".
-/
import proofs.«172477_j19095424598682_1_alg».proof.Proof.Gen.Kernel.Launch
import proofs.«172477_j19095424598682_1_alg».proof.Proof.Gen.Kernel.Skeleton
import proofs.«172477_j19095424598682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The entry contents of the core's buffers, a parameter: the region is entered after the host's conversions.
variable (V : (c : Dev nD) → (b : Ref sig .tc) → Buf (Elt F) ((c : Thread nD τ).loc b))

/-- The two offsets of a whole-block access are zero. -/
theorem off00 : (![0, 0] : Fin S1024x1024.rank → ℕ) = fun _ => 0 := by
  funext a; fin_cases a <;> rfl

/-! ## The blocks of the operands at a point -/

/-- Block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x's window holds the block of x at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of W's window holds the block of W at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "k = 0": the accumulator is zeroed first. -/
abbrev isFirst (i : grid0.Coords) : Prop := (Scalar.cmpi .ne (Scalar.extui (Scalar.cmpi .eq (BitVec.ofNat 32 (i 1).val) 0#32)) 0#32) = 1#1
/-- "k = 7": the accumulator is written out. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The operand windows are never idle; the result's window is idle, and not written back, exactly away from k = 7. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

/-! ## The accumulator after each point -/

/-- What the scratch buffer holds after the body at position `n`: at k = 0 the zero block plus this point's product,
    otherwise what the point before left plus this point's product. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h : t.val % 8 = 0) :
    acc0 V c t.val t.isLt = k0_pay2 (k0_pay1 (F := F)) (iblk0 V c 0 t) (iblk0 V c 1 t) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## The invariant: the scratch buffer between points -/

/-- The accumulator's buffer as a memref. -/
abbrev accM : Memref sig .tc .vmem S1024x1024 .f32 := Memref.whole cc0_scratch0

/-- The core's other scoped buffers that this kernel does not stage (the second kernel's staging buffers), at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the accumulator's buffer at anything, the other scoped buffers, the generator register. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA; rw [scopedRest0_eq]; unfold others0; simp only [accM, owns_whole]; try rfl

/-- Before position `n`: at the start what the launch hands over; afterwards the accumulator's buffer at what the point
    before left. -/
def PhiS (c : Dev nD) : (n : ℕ) → n ≤ cfg0.N → sProp 𝕄
  | 0, _ => Pipeline.ΦA spec0 c
  | n + 1, hn => iprop(iprop(owns (c : Thread nD τ) accM fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (acc0 V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (acc0 V c (n - 1) (by omega)) ∗ others0 c) ∗ (∃ r, prngReg c r)) := by
  cases n with
  | zero => exact absurd rfl hz
  | succ n => rfl

/-- At any position the invariant holds the accumulator's buffer at SOME contents. -/
theorem PhiS_any (c : Dev nD) (n : ℕ) (h : n ≤ cfg0.N) :
    PhiS V c n h ⊢ (iprop(iprop((∃ d, owns (c : Thread nD τ) accM fullShare d) ∗ others0 c) ∗ (∃ r, prngReg c r)) : sProp 𝕄) := by
  cases n with
  | zero => rw [PhiS_zero V c 0 h rfl, PhiA0_eq]
  | succ n =>
    rw [PhiS_succ]
    iintro ⟨⟨HS, Ho⟩, Hg⟩
    isplitl [HS Ho]
    · isplitl [HS]; · iexists _; iexact HS
      iexact Ho
    iexact Hg

/-! ## The body, run in each situation -/

set_option maxHeartbeats 1000000 in
/-- k = 0 (and not 7): the accumulator's buffer, whatever it held, ends at zero plus the product; the result's staging
    buffer is not touched. -/
theorem run_first (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : isFirst i) (hc1 : ¬isLast i)
    (x0 x1 d4 : Vec F S1024x1024 .bf16) (K : PUnit → sProp 𝕄) :
    iprop(owns (c : Thread nD τ) arg2 fullShare x0 ∗ owns (c : Thread nD τ) arg3 fullShare x1 ∗ owns (c : Thread nD τ) arg4 fullShare d4
        ∗ (∃ d, owns (c : Thread nD τ) arg5 fullShare d)
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 (k0_pay1 (F := F)) x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_cons_unit_zero off00,
    View.readCov_unit_zero (S := S1024x1024) arg5.view off00, View.readAt_eq_ld, View.readAt_eq_ld, harg2.read_unread, harg3.read_unread,
    View.ld_unit_zero (S := S1024x1024) off00, View.ld_unit_zero (S := S1024x1024) off00]

set_option maxHeartbeats 1000000 in
/-- 0 < k < 7: the accumulator's buffer goes from `xs` to `xs` plus the product; the result's staging buffer is not touched. -/
theorem run_mid (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : ¬isFirst i) (hc1 : ¬isLast i)
    (x0 x1 d4 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare xs
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 xs x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_unit_zero off00,
    View.readAt_eq_ld, View.readAt_eq_ld, View.readAt_eq_ld, harg2.read_unread, harg3.read_unread, harg5.read_unread,
    View.ld_unit_zero (S := S1024x1024) off00, View.ld_unit_zero (S := S1024x1024) off00, View.ld_unit_zero (S := S1024x1024) off00]

set_option maxHeartbeats 1000000 in
/-- k = 7: the accumulator's buffer goes from `xs` to `xs` plus the product, and the result's staging buffer, whatever
    it held, ends at that sum converted to the result's format. -/
theorem run_last (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : ¬isFirst i) (hc1 : isLast i)
    (x0 x1 : Vec F S1024x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 xs x0 x1))
            ∗ owns (c : Thread nD τ) arg5 fullShare (k0_pay2 xs x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self .., View.mem_set_unit_zero off00 inb_S1024x1024_S1024x1024_0_0 y⟩), View.canon_unit_zero off00,
      View.readCov_unit_zero (S := S1024x1024) arg5.view off00,
      View.readAt_eq_ld, View.readAt_eq_ld, View.readAt_eq_ld, harg2.read_unread, harg3.read_unread, harg5.read_unread,
      View.ld_unit_zero (S := S1024x1024) off00, View.ld_unit_zero (S := S1024x1024) off00, View.ld_unit_zero (S := S1024x1024) off00]
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_unit_zero off00,
    View.readAt_eq_ld, View.readAt_eq_ld, View.readAt_eq_ld, harg2.read_unread, harg3.read_unread, harg5.read_unread,
    View.ld_unit_zero (S := S1024x1024) off00, View.ld_unit_zero (S := S1024x1024) off00, View.ld_unit_zero (S := S1024x1024) off00]

/-! ## The proof data -/

/-- The first kernel's proof data on core `c`: the arrays as the region finds them; after the body at point `t` the operand
    windows still hold their blocks and the result's window the accumulator converted (read only where k = 7); the
    invariant tracks the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- At any point the body meets its obligation: the position of the point among the eight k-steps says which run applies;
    the invariant hands over the accumulator's buffer (at what the point before left, or at anything at k = 0) and takes
    it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [PhiS_castSucc V c t]
  have hN : t.val < 64 := lt_of_lt_of_eq t.isLt (show cfg0.N = 64 from N_0)
  by_cases h7 : t.val % 8 = 7
  · have h0 : ¬t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t ((isLast_iff t).mpr h7)], after0_2]
    rw [acc0_next V c t h0, PhiS_pos V c _ _ hz]
    iintro ⟨⟨⟨HS, Hoth⟩, Hg⟩, Ho, ⟨%d0, H0⟩, ⟨%d1, H1⟩, ⟨%d2, H2⟩⟩
    iapply (run_last c Set.univ (grid0.coords t) _ _ _ _ _ _ _ _ (fun h => h0 ((isFirst_iff t).mp h)) ((isLast_iff t).mpr h7)
      (iblk0 V c 0 t) (iblk0 V c 1 t) (acc0 V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idle0_2 t (fun h => h7 ((isLast_iff t).mp h))) (noFlush0_2 t (fun h => h7 ((isLast_iff t).mp h)))]
    by_cases h0 : t.val % 8 = 0
    · rw [acc0_first V c t h0]
      iintro ⟨HΦ, Ho, ⟨%d0, H0⟩, ⟨%d1, H1⟩, ⟨%d2, H2⟩⟩
      have hany := PhiS_any V c t.val (Nat.le_of_lt t.isLt)
      ihave HP := hany $$ HΦ
      icases HP with ⟨⟨HS, Hoth⟩, Hg⟩
      iapply (run_first c Set.univ (grid0.coords t) _ _ _ _ _ _ _ _ ((isFirst_iff t).mpr h0) (fun h => h7 ((isLast_iff t).mp h))
        (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := by omega
      rw [acc0_next V c t h0, PhiS_pos V c _ _ hz]
      iintro ⟨⟨⟨HS, Hoth⟩, Hg⟩, Ho, ⟨%d0, H0⟩, ⟨%d1, H1⟩, ⟨%d2, H2⟩⟩
      iapply (run_mid c Set.univ (grid0.coords t) _ _ _ _ _ _ _ _ (fun h => h0 ((isFirst_iff t).mp h)) (fun h => h7 ((isLast_iff t).mp h))
        (iblk0 V c 0 t) (iblk0 V c 1 t) ((dat0 V c).before 2 t d2) (acc0 V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_any V c _ _

end Cert.Kernel.Hand

end
-- ==== Proof.BitsRegion1.lean ====
/-
  The second matrix product's kernel, out = max(h · Wᵀ + bias, 0), on a grid of 8 × 8 points (i, j): point (i, j) reads
  block i of h, block j of W and block j of the bias row, and stores the 1024 × 1024 block (i, j) of the result whole.
  Nothing is carried between points, so the invariant is the plain one; this module runs the body once, on any whole
  staging buffers, and concludes that it meets its obligation at every point — for any float instance.
-/
import proofs.«172477_j19095424598682_1_alg».proof.Proof.Gen.Kernel.Launch
import proofs.«172477_j19095424598682_1_alg».proof.Proof.Gen.Kernel.Skeleton
import proofs.«172477_j19095424598682_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The entry contents of the core's buffers, a parameter: the region is entered after the first kernel and the bias reshape.
variable (V : (c : Dev nD) → (b : Ref sig .tc) → Buf (Elt F) ((c : Thread nD τ).loc b))

/-- The two offsets of a whole-block access are zero (for a square block and for the bias row). -/
theorem off00s : (![0, 0] : Fin S1024x1024.rank → ℕ) = fun _ => 0 := by
  funext a; fin_cases a <;> rfl
theorem off00r : (![0, 0] : Fin S1x1024.rank → ℕ) = fun _ => 0 := by
  funext a; fin_cases a <;> rfl

/-! ## The blocks of the operands at a point -/

/-- Block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each operand's staging buffer holds the operand's block at every point, whether or not the point fetched it
    (the block of h is fetched once per row of points: its index does not move in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

set_option maxHeartbeats 1000000 in
/-- On whole staging buffers, the operands' at `x0`, `x1`, `x2` and the result's at anything, the body runs to the
    continuation with the operands' as they were and the result's at the body's one stored value. -/
theorem run_second (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%d5, %f5, -, H5⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H5
  ipureintro
  rw [View.read_writes_eq_canon _ _ _ (fun y => ⟨_, List.mem_cons_self .., View.mem_set_unit_zero off00s inb_S1024x1024_S1024x1024_0_0 y⟩), View.canon_unit_zero off00s,
    View.readAt_eq_ld, View.readAt_eq_ld, View.readAt_eq_ld, harg2.read_unread, harg3.read_unread, harg4.read_unread,
    View.ld_unit_zero (S := S1024x1024) off00s, View.ld_unit_zero (S := S1024x1024) off00s, View.ld_unit_zero (S := S1x1024) off00r]

/-! ## The proof data and the obligation -/

/-- The second kernel's proof data on core `c`: the arrays as the region finds them; after the body the operand windows
    still hold their blocks and the result's window the stored value of the three blocks; the plain invariant (the other
    scoped buffers and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' staging buffers hold their blocks, so the run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_second c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program: convert x and W, run the first kernel, reshape the bias to a row, run the second kernel. This module
  follows the contents of the core's buffers through those four steps — a host step applies its operations; a kernel
  leaves in each of its arrays what its write-backs leave and touches nothing else — presents the two kernels as regions
  entered from and left at those contents, and launches the four steps in order. Its conclusion, for any float instance:
  every weakly fair execution ends, and every final memory holds each buffer at the last step's contents. The arguments
  are written by no step, so they end as launched.
-/
import proofs.«172477_j19095424598682_1_alg».proof.Proof.BitsRegion0
import proofs.«172477_j19095424598682_1_alg».proof.Proof.BitsRegion1
import proofs.«172477_j19095424598682_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two conversions (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the bias reshape (the second kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that is no array of either kernel and that no host step writes ends as launched. -/
theorem W4_kept (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m c (Proc.devRef .tc b) = m ((c : Thread nD τ).loc b) :=
  (W4_of_ne m c b h1).trans <| (StableHlo.after_of_writes_sub hostOps1 (W2 m c) hostOps1_writes h2).trans <|
    (W2_of_ne m c b h3).trans <| (StableHlo.after_of_writes_sub hostOps0 (W0 m c) hostOps0_writes h4).trans rfl

/-! ## The proof data of both kernels and the state carried between steps -/

abbrev adm' : (p : Fin 2) → (pcfgs (F := F) p).Adm := fun p => (cfgs p).toPCfg_adm
/-- Both kernels' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host step as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last contents, the generator register at some state. -/
abbrev Tend (c : Dev nD) : sProp 𝕄 := iprop(StableHlo.held (c : Thread nD τ) (Pipeline.ucRefs τ sig) (W4 m c) ∗ ∃ r, prngReg c r)

/-! ## The two kernels as regions -/

set_option backward.isDefEq.respectTransparency.types false in
/-- The first kernel: entered from the buffers at `W1`, left at `W2`. Its arrays are split out of the unscoped buffers and put
    back at what its write-backs leave; the generator register and the scoped buffers no window stages go into its
    invariant (which tracks the accumulator) and come back; nothing is owed; it has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have hback : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans hback
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from the buffers at `W3`, left at `W4`, the last contents. Its invariant is the plain one. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four steps in order, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and every
    final memory holds each unscoped buffer at the last step's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

end Cert.Kernel.Hand

end
-- ==== Proof.IdealRegion0.lean ====
/-
  The first matrix product's kernel, h = x · W, on a grid of 8 × 8 points (i, k): point (i, k) adds the product of
  block (i, k) of x and block k of W into a 1024 × 1024 accumulator that lives in a scratch buffer of the kernel's
  own, zeroed at k = 0 and written out (to block i of h) at k = 7. This module states, for any float instance,
  what the accumulator holds after every point (by recursion on the point), runs the kernel's body in each of the
  three situations a point can be in (k = 0, 0 < k < 7, k = 7), and concludes that the body meets its obligation
  at every point under the invariant "the scratch buffer holds the accumulator of the point before".
-/
import proofs.«172477_j19095424598682_1_alg».proof.Proof.Gen.KernelIdeal.Launch
import proofs.«172477_j19095424598682_1_alg».proof.Proof.Gen.KernelIdeal.Skeleton
import proofs.«172477_j19095424598682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The entry contents of the core's buffers, a parameter: the region is entered after the host's conversions.
variable (V : (c : Dev nD) → (b : Ref sig .tc) → Buf (Elt F) ((c : Thread nD τ).loc b))

/-- The two offsets of a whole-block access are zero. -/
theorem off00 : (![0, 0] : Fin S1024x1024.rank → ℕ) = fun _ => 0 := by
  funext a; fin_cases a <;> rfl

/-! ## The blocks of the operands at a point -/

/-- Block of window `w` at point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of x's window holds the block of x at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of W's window holds the block of W at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions of the body, over the grid -/

/-- "k = 0": the accumulator is zeroed first. -/
abbrev isFirst (i : grid0.Coords) : Prop := (Scalar.cmpi .ne (Scalar.extui (Scalar.cmpi .eq (BitVec.ofNat 32 (i 1).val) 0#32)) 0#32) = 1#1
/-- "k = 7": the accumulator is written out. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)
theorem isLast_iff : ∀ t : Fin cfg0.N, isLast (grid0.coords t) ↔ t.val % 8 = 7 :=
  (by decide +kernel : ∀ t : Fin grid0.N, isLast (grid0.coords t) ↔ t.val % 8 = 7)

/-- The operand windows are never idle; the result's window is idle, and not written back, exactly away from k = 7. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem noFlush0_2 : ∀ t : Fin cfg0.N, ¬isLast (grid0.coords t) → (cfg0.win 2).flush t = false := by decide +kernel
theorem live0_2 : ∀ t : Fin cfg0.N, isLast (grid0.coords t) → cfg0.idle 2 (grid0.coords t) = false := by decide +kernel

/-! ## The accumulator after each point -/

/-- What the scratch buffer holds after the body at position `n`: at k = 0 the zero block plus this point's product,
    otherwise what the point before left plus this point's product. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 8 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h : t.val % 8 = 0) :
    acc0 V c t.val t.isLt = k0_pay2 (k0_pay1 (F := F)) (iblk0 V c 0 t) (iblk0 V c 1 t) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## The invariant: the scratch buffer between points -/

/-- The accumulator's buffer as a memref. -/
abbrev accM : Memref sig .tc .vmem S1024x1024 .f32 := Memref.whole cc0_scratch0

/-- The core's other scoped buffers that this kernel does not stage (the second kernel's staging buffers), at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region: the accumulator's buffer at anything, the other scoped buffers, the generator register. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA; rw [scopedRest0_eq]; unfold others0; simp only [accM, owns_whole]; try rfl

/-- Before position `n`: at the start what the launch hands over; afterwards the accumulator's buffer at what the point
    before left. -/
def PhiS (c : Dev nD) : (n : ℕ) → n ≤ cfg0.N → sProp 𝕄
  | 0, _ => Pipeline.ΦA spec0 c
  | n + 1, hn => iprop(iprop(owns (c : Thread nD τ) accM fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (acc0 V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (acc0 V c (n - 1) (by omega)) ∗ others0 c) ∗ (∃ r, prngReg c r)) := by
  cases n with
  | zero => exact absurd rfl hz
  | succ n => rfl

/-- At any position the invariant holds the accumulator's buffer at SOME contents. -/
theorem PhiS_any (c : Dev nD) (n : ℕ) (h : n ≤ cfg0.N) :
    PhiS V c n h ⊢ (iprop(iprop((∃ d, owns (c : Thread nD τ) accM fullShare d) ∗ others0 c) ∗ (∃ r, prngReg c r)) : sProp 𝕄) := by
  cases n with
  | zero => rw [PhiS_zero V c 0 h rfl, PhiA0_eq]
  | succ n =>
    rw [PhiS_succ]
    iintro ⟨⟨HS, Ho⟩, Hg⟩
    isplitl [HS Ho]
    · isplitl [HS]; · iexists _; iexact HS
      iexact Ho
    iexact Hg

/-! ## The body, run in each situation -/

set_option maxHeartbeats 1000000 in
/-- k = 0 (and not 7): the accumulator's buffer, whatever it held, ends at zero plus the product; the result's staging
    buffer is not touched. -/
theorem run_first (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : isFirst i) (hc1 : ¬isLast i)
    (x0 x1 d4 : Vec F S1024x1024 .bf16) (K : PUnit → sProp 𝕄) :
    iprop(owns (c : Thread nD τ) arg2 fullShare x0 ∗ owns (c : Thread nD τ) arg3 fullShare x1 ∗ owns (c : Thread nD τ) arg4 fullShare d4
        ∗ (∃ d, owns (c : Thread nD τ) arg5 fullShare d)
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 (k0_pay1 (F := F)) x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_cons_unit_zero off00,
    View.readCov_unit_zero (S := S1024x1024) arg5.view off00, View.readAt_eq_ld, View.readAt_eq_ld, harg2.read_unread, harg3.read_unread,
    View.ld_unit_zero (S := S1024x1024) off00, View.ld_unit_zero (S := S1024x1024) off00]

set_option maxHeartbeats 1000000 in
/-- 0 < k < 7: the accumulator's buffer goes from `xs` to `xs` plus the product; the result's staging buffer is not touched. -/
theorem run_mid (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : ¬isFirst i) (hc1 : ¬isLast i)
    (x0 x1 d4 : Vec F S1024x1024 .bf16) (xs : Vec F S1024x1024 .f32) (K : PUnit → sProp 𝕄) :
    iprop(owns (c : Thread nD τ) arg2 fullShare x0 ∗ owns (c : Thread nD τ) arg3 fullShare x1 ∗ owns (c : Thread nD τ) arg4 fullShare d4
        ∗ owns (c : Thread nD τ) arg5 fullShare xs
        ∗ (iprop(owns (c : Thread nD τ) arg2 fullShare x0 ∗ owns (c : Thread nD τ) arg3 fullShare x1 ∗ owns (c : Thread nD τ) arg4 fullShare d4
            ∗ owns (c : Thread nD τ) arg5 fullShare (k0_pay2 xs x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_unit_zero off00,
    View.readAt_eq_ld, View.readAt_eq_ld, View.readAt_eq_ld, harg2.read_unread, harg3.read_unread, harg5.read_unread,
    View.ld_unit_zero (S := S1024x1024) off00, View.ld_unit_zero (S := S1024x1024) off00, View.ld_unit_zero (S := S1024x1024) off00]

set_option maxHeartbeats 1000000 in
/-- k = 7: the accumulator's buffer goes from `xs` to `xs` plus the product, and the result's staging buffer, whatever
    it held, ends at that sum converted to the result's format. -/
theorem run_last (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .f32) (harg5 : arg5.IsWhole)
    (hc0 : ¬isFirst i) (hc1 : isLast i)
    (x0 x1 : Vec F S1024x1024 .bf16) (xs : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 xs x0 x1))
            ∗ owns (c : Thread nD τ) arg5 fullShare (k0_pay2 xs x0 x1)) -∗ K ⟨⟩))
      ⊢ wp frame (wpE (defs₀ (F := F)) Variants.none c none) E (cc0__mm1_kernel i arg2 harg2 arg3 harg3 arg4 harg4 arg5 harg5) K := by
  simp only [cc0__mm1_kernel_eq_skeleton]; unfold cc0__mm1_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self .., View.mem_set_unit_zero off00 inb_S1024x1024_S1024x1024_0_0 y⟩), View.canon_unit_zero off00,
      View.readCov_unit_zero (S := S1024x1024) arg5.view off00,
      View.readAt_eq_ld, View.readAt_eq_ld, View.readAt_eq_ld, harg2.read_unread, harg3.read_unread, harg5.read_unread,
      View.ld_unit_zero (S := S1024x1024) off00, View.ld_unit_zero (S := S1024x1024) off00, View.ld_unit_zero (S := S1024x1024) off00]
  iexists _; isplitr
  swap; · iexact H5
  ipureintro
  sl_unfold_words
  rw [View.read_writes_eq_canon _ _ _ (fun y => ⟨_, List.mem_cons_self .., View.mem_set_unit_zero off00 inb_S1024x1024_S1024x1024_0_0 y⟩), View.canon_unit_zero off00,
    View.readAt_eq_ld, View.readAt_eq_ld, View.readAt_eq_ld, harg2.read_unread, harg3.read_unread, harg5.read_unread,
    View.ld_unit_zero (S := S1024x1024) off00, View.ld_unit_zero (S := S1024x1024) off00, View.ld_unit_zero (S := S1024x1024) off00]

/-! ## The proof data -/

/-- The first kernel's proof data on core `c`: the arrays as the region finds them; after the body at point `t` the operand
    windows still hold their blocks and the result's window the accumulator converted (read only where k = 7); the
    invariant tracks the accumulator; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- At any point the body meets its obligation: the position of the point among the eight k-steps says which run applies;
    the invariant hands over the accumulator's buffer (at what the point before left, or at anything at k = 0) and takes
    it back at this point's accumulator. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [PhiS_castSucc V c t]
  have hN : t.val < 64 := lt_of_lt_of_eq t.isLt (show cfg0.N = 64 from N_0)
  by_cases h7 : t.val % 8 = 7
  · have h0 : ¬t.val % 8 = 0 := by omega
    have hz : t.val ≠ 0 := by omega
    rw [show (dat0 V c).leavesExact 2 t = owns (c : Thread nD τ) (st0_2 t) fullShare ((dat0 V c).after 2 t) from by
      unfold Dat.leavesExact; rw [live0_2 t ((isLast_iff t).mpr h7)], after0_2]
    rw [acc0_next V c t h0, PhiS_pos V c _ _ hz]
    iintro ⟨⟨⟨HS, Hoth⟩, Hg⟩, Ho, ⟨%d0, H0⟩, ⟨%d1, H1⟩, ⟨%d2, H2⟩⟩
    iapply (run_last c Set.univ (grid0.coords t) _ _ _ _ _ _ _ _ (fun h => h0 ((isFirst_iff t).mp h)) ((isLast_iff t).mpr h7)
      (iblk0 V c 0 t) (iblk0 V c 1 t) (acc0 V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idle0_2 t (fun h => h7 ((isLast_iff t).mp h))) (noFlush0_2 t (fun h => h7 ((isLast_iff t).mp h)))]
    by_cases h0 : t.val % 8 = 0
    · rw [acc0_first V c t h0]
      iintro ⟨HΦ, Ho, ⟨%d0, H0⟩, ⟨%d1, H1⟩, ⟨%d2, H2⟩⟩
      have hany := PhiS_any V c t.val (Nat.le_of_lt t.isLt)
      ihave HP := hany $$ HΦ
      icases HP with ⟨⟨HS, Hoth⟩, Hg⟩
      iapply (run_first c Set.univ (grid0.coords t) _ _ _ _ _ _ _ _ ((isFirst_iff t).mpr h0) (fun h => h7 ((isLast_iff t).mp h))
        (iblk0 V c 0 t) (iblk0 V c 1 t) ((dat0 V c).before 2 t d2) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · have hz : t.val ≠ 0 := by omega
      rw [acc0_next V c t h0, PhiS_pos V c _ _ hz]
      iintro ⟨⟨⟨HS, Hoth⟩, Hg⟩, Ho, ⟨%d0, H0⟩, ⟨%d1, H1⟩, ⟨%d2, H2⟩⟩
      iapply (run_mid c Set.univ (grid0.coords t) _ _ _ _ _ _ _ _ (fun h => h0 ((isFirst_iff t).mp h)) (fun h => h7 ((isLast_iff t).mp h))
        (iblk0 V c 0 t) (iblk0 V c 1 t) ((dat0 V c).before 2 t d2) (acc0 V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the launch's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_any V c _ _

end Cert.KernelIdeal.Hand

end
-- ==== Proof.IdealRegion1.lean ====
/-
  The second matrix product's kernel, out = max(h · Wᵀ + bias, 0), on a grid of 8 × 8 points (i, j): point (i, j) reads
  block i of h, block j of W and block j of the bias row, and stores the 1024 × 1024 block (i, j) of the result whole.
  Nothing is carried between points, so the invariant is the plain one; this module runs the body once, on any whole
  staging buffers, and concludes that it meets its obligation at every point — for any float instance.
-/
import proofs.«172477_j19095424598682_1_alg».proof.Proof.Gen.KernelIdeal.Launch
import proofs.«172477_j19095424598682_1_alg».proof.Proof.Gen.KernelIdeal.Skeleton
import proofs.«172477_j19095424598682_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The entry contents of the core's buffers, a parameter: the region is entered after the first kernel and the bias reshape.
variable (V : (c : Dev nD) → (b : Ref sig .tc) → Buf (Elt F) ((c : Thread nD τ).loc b))

/-- The two offsets of a whole-block access are zero (for a square block and for the bias row). -/
theorem off00s : (![0, 0] : Fin S1024x1024.rank → ℕ) = fun _ => 0 := by
  funext a; fin_cases a <;> rfl
theorem off00r : (![0, 0] : Fin S1x1024.rank → ℕ) = fun _ => 0 := by
  funext a; fin_cases a <;> rfl

/-! ## The blocks of the operands at a point -/

/-- Block of window `w` at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each operand's staging buffer holds the operand's block at every point, whether or not the point fetched it
    (the block of h is fetched once per row of points: its index does not move in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body -/

set_option maxHeartbeats 1000000 in
/-- On whole staging buffers, the operands' at `x0`, `x1`, `x2` and the result's at anything, the body runs to the
    continuation with the operands' as they were and the result's at the body's one stored value. -/
theorem run_second (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1024x1024 .f32) (harg5 : arg5.IsWhole)
    (x0 x1 : Vec F S1024x1024 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__mm2_kernel i arg2 harg2 arg3 harg3 arg4 harg4 arg5 harg5) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%d5, %f5, -, H5⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H5
  ipureintro
  rw [View.read_writes_eq_canon _ _ _ (fun y => ⟨_, List.mem_cons_self .., View.mem_set_unit_zero off00s inb_S1024x1024_S1024x1024_0_0 y⟩), View.canon_unit_zero off00s,
    View.readAt_eq_ld, View.readAt_eq_ld, View.readAt_eq_ld, harg2.read_unread, harg3.read_unread, harg4.read_unread,
    View.ld_unit_zero (S := S1024x1024) off00s, View.ld_unit_zero (S := S1024x1024) off00s, View.ld_unit_zero (S := S1x1024) off00r]

/-! ## The proof data and the obligation -/

/-- The second kernel's proof data on core `c`: the arrays as the region finds them; after the body the operand windows
    still hold their blocks and the result's window the stored value of the three blocks; the plain invariant (the other
    scoped buffers and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' staging buffers hold their blocks, so the run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (run_second c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The whole program: convert x and W, run the first kernel, reshape the bias to a row, run the second kernel. This module
  follows the contents of the core's buffers through those four steps — a host step applies its operations; a kernel
  leaves in each of its arrays what its write-backs leave and touches nothing else — presents the two kernels as regions
  entered from and left at those contents, and launches the four steps in order. Its conclusion, for any float instance:
  every weakly fair execution ends, and every final memory holds each buffer at the last step's contents. The arguments
  are written by no step, so they end as launched.
-/
import proofs.«172477_j19095424598682_1_alg».proof.Proof.IdealRegion0
import proofs.«172477_j19095424598682_1_alg».proof.Proof.IdealRegion1
import proofs.«172477_j19095424598682_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (HostSeg RegionSeg Seg)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the two conversions (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the bias reshape (the second kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that is no array of either kernel and that no host step writes ends as launched. -/
theorem W4_kept (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m c (Proc.devRef .tc b) = m ((c : Thread nD τ).loc b) :=
  (W4_of_ne m c b h1).trans <| (StableHlo.after_of_writes_sub hostOps1 (W2 m c) hostOps1_writes h2).trans <|
    (W2_of_ne m c b h3).trans <| (StableHlo.after_of_writes_sub hostOps0 (W0 m c) hostOps0_writes h4).trans rfl

/-! ## The proof data of both kernels and the state carried between steps -/

abbrev adm' : (p : Fin 2) → (pcfgs (F := F) p).Adm := fun p => (cfgs p).toPCfg_adm
/-- Both kernels' proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host step as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the last contents, the generator register at some state. -/
abbrev Tend (c : Dev nD) : sProp 𝕄 := iprop(StableHlo.held (c : Thread nD τ) (Pipeline.ucRefs τ sig) (W4 m c) ∗ ∃ r, prngReg c r)

/-! ## The two kernels as regions -/

set_option backward.isDefEq.respectTransparency.types false in
/-- The first kernel: entered from the buffers at `W1`, left at `W2`. Its arrays are split out of the unscoped buffers and put
    back at what its write-backs leave; the generator register and the scoped buffers no window stages go into its
    invariant (which tracks the accumulator) and come back; nothing is owed; it has no semaphore of its own. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have hback : (Pipeline.ΦA spec0 c : sProp 𝕄) ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans hback
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered from the buffers at `W3`, left at `W4`, the last contents. Its invariant is the plain one. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four steps in order, and the launch -/

abbrev segs : List (Pipeline.Seg (pcfgs (F := F)) adm' (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and every
    final memory holds each unscoped buffer at the last step's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩) (run_all m ρ)

end Cert.KernelIdeal.Hand

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.IdealValue0.lean ====
/-
  What the first kernel leaves in h, at the exact instance. Entry (r, q) of the accumulator after the k-th step of a
  row of points is the sum, over the k-blocks met so far, of the block's part of the contraction Σ_f x(r, f) · W(f, q);
  at k = 7 all eight blocks are in, and eight consecutive blocks of 1024 indices are the 8192 indices of the
  contraction axis. The blocks written back at the points with k = 7 tile h, so h ends as the product x · W.
  Only associativity and commutativity of addition on the extended reals are used: no entry needs to be finite.
-/
import proofs.«172477_j19095424598682_1_alg».proof.Proof.IdealRegion0
import proofs.«172477_j19095424598682_1_alg».proof.Proof.LibMatmul2d
import proofs.«172477_j19095424598682_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The body's values at an index -/

theorem pay1_apply (y : S1024x1024.Idx) : k0_pay1 (F := Ideal) y = 0 := by
  unfold k0_pay1
  rw [shapeCast_self]
  exact Ideal.ofBits_zero_f32

/-- Entry (p, q) of the product of two 1024 × 1024 blocks. -/
def prodAt (x w : Vec Ideal S1024x1024 .bf16) (p q : Fin 1024) : EReal := ∑ j : Fin 1024, x (ix2 p j) * w (ix2 j q)

theorem pay2_apply (a : Vec Ideal S1024x1024 .f32) (x w : Vec Ideal S1024x1024 .bf16) (p q : Fin 1024) :
    k0_pay2 a x w (ix2 p q) = a (ix2 p q) + prodAt x w p q := by
  unfold k0_pay2 prodAt
  simp only [shapeCast_self]
  rw [show dot_S1024x1024_S1024x1024_S1024x1024_1_0_0_1_n_n = DotDims.plain 1024 1024 1024 from rfl]
  exact congrArg (a (ix2 p q) + ·) (Cert.LibMatmul2d.matmul_plain_apply x w p q)

theorem pay3_apply (a : Vec Ideal S1024x1024 .f32) (y : S1024x1024.Idx) : k0_pay3 a y = a y := rfl

/-! ## The blocks, read off the arrays the region is entered with -/

/-- Point `t` is step `t % 8` of row `t / 8`: x's block is (t / 8, t % 8), W's is (t % 8, 0), h's is (t / 8, 0). -/
theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx0_2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

theorem lt64 (t : Fin cfg0.N) : t.val < 64 := lt_of_lt_of_eq t.isLt (show cfg0.N = 64 from N_0)

/-- Row `p` of the block row `t / 8`, as a row of the whole array. -/
def rowOf (n : ℕ) (hn : n < 64) (p : Fin 1024) : Fin 8192 := ⟨1024 * (n / 8) + p.val, by omega⟩
/-- Entry `j` of k-block `s`, as an index of the contraction axis. -/
def colOf (s : ℕ) (hs : s < 8) (j : Fin 1024) : Fin 8192 := ⟨1024 * s + j.val, by omega⟩

theorem iblk0_0_apply (c : Dev nD) (t : Fin cfg0.N) (p j : Fin 1024) :
    iblk0 V c 0 t (ix2 p j)
      = (V c main_v0 : S8192x8192.Idx → EReal) (ix2 (rowOf t.val (lt64 t) p) (colOf (t.val % 8) (Nat.mod_lt _ (by norm_num)) j)) := by
  unfold iblk0
  show (V c main_v0 : S8192x8192.Idx → EReal) (((cfg0.win 0).blk t).view.emb (ix2 p j)) = _
  refine congrArg _ (funext fun a => Fin.ext ?_)
  obtain ⟨e0, e1⟩ := idx0_0 t
  match a with
  | ⟨0, _⟩ => show win0_0.index t (0 : Fin 2) * 1024 + 1 * p.val = 1024 * (t.val / 8) + p.val; rw [e0]; omega
  | ⟨1, _⟩ => show win0_0.index t (1 : Fin 2) * 1024 + 1 * j.val = 1024 * (t.val % 8) + j.val; rw [e1]; omega

theorem iblk0_1_apply (c : Dev nD) (t : Fin cfg0.N) (j q : Fin 1024) :
    iblk0 V c 1 t (ix2 j q)
      = (V c main_v1 : S8192x1024.Idx → EReal) (ix2 (colOf (t.val % 8) (Nat.mod_lt _ (by norm_num)) j) q) := by
  unfold iblk0
  show (V c main_v1 : S8192x1024.Idx → EReal) (((cfg0.win 1).blk t).view.emb (ix2 j q)) = _
  refine congrArg _ (funext fun a => Fin.ext ?_)
  obtain ⟨e0, e1⟩ := idx0_1 t
  match a with
  | ⟨0, _⟩ => show win0_1.index t (0 : Fin 2) * 1024 + 1 * j.val = 1024 * (t.val % 8) + j.val; rw [e0]; omega
  | ⟨1, _⟩ => show win0_1.index t (1 : Fin 2) * 1024 + 1 * q.val = q.val; rw [e1]; omega

/-! ## The accumulator in closed form -/

/-- What k-block `s` contributes to entry (r, q) of x · W. -/
def blockTerm (X : S8192x8192.Idx → EReal) (Wm : S8192x1024.Idx → EReal) (r : Fin 8192) (q : Fin 1024) (s : ℕ) : EReal :=
  if hs : s < 8 then ∑ j : Fin 1024, X (ix2 r (colOf s hs j)) * Wm (ix2 (colOf s hs j) q) else 0

/-- This point's product is its k-block's contribution. -/
theorem point_product (c : Dev nD) (t : Fin cfg0.N) (p q : Fin 1024) :
    prodAt (iblk0 V c 0 t) (iblk0 V c 1 t) p q
      = blockTerm (V c main_v0) (V c main_v1) (rowOf t.val (lt64 t) p) q (t.val % 8) := by
  unfold blockTerm prodAt
  rw [dif_pos (Nat.mod_lt _ (by norm_num))]
  refine Finset.sum_congr rfl fun j _ => ?_
  rw [iblk0_0_apply, iblk0_1_apply]

/-- After step k of a row of points the accumulator holds the contributions of the k-blocks 0, …, k. -/
theorem acc0_closed (c : Dev nD) : ∀ (n : ℕ) (hn : n < cfg0.N) (p q : Fin 1024),
    acc0 V c n hn (ix2 p q)
      = ∑ s ∈ Finset.range (n % 8 + 1), blockTerm (V c main_v0) (V c main_v1) (rowOf n (lt_of_lt_of_eq hn N_0) p) q s := by
  intro n
  induction n with
  | zero =>
    intro hn p q
    rw [acc0_first V c ⟨0, hn⟩ (Nat.zero_mod _), pay2_apply, pay1_apply, zero_add, point_product]
    simp only [Nat.zero_mod, zero_add, Finset.sum_range_one]
  | succ n ih =>
    intro hn p q
    have hN : n + 1 < 64 := lt_of_lt_of_eq hn N_0
    by_cases h0 : (n + 1) % 8 = 0
    · rw [acc0_first V c ⟨n + 1, hn⟩ h0, pay2_apply, pay1_apply, zero_add, point_product]
      show blockTerm _ _ (rowOf (n + 1) _ p) q ((n + 1) % 8) = _
      rw [h0]; simp only [zero_add, Finset.sum_range_one]
    · rw [acc0_next V c ⟨n + 1, hn⟩ h0, pay2_apply, point_product]
      show acc0 V c n _ (ix2 p q) + blockTerm _ _ (rowOf (n + 1) _ p) q ((n + 1) % 8) = _
      rw [ih (Nat.lt_of_succ_lt hn) p q]
      have hm : (n + 1) % 8 = n % 8 + 1 := by omega
      have hr : rowOf n (by omega) p = rowOf (n + 1) hN p := Fin.ext (by unfold rowOf; show 1024 * (n / 8) + p.val = 1024 * ((n + 1) / 8) + p.val; omega)
      rw [hm, Finset.sum_range_succ _ (n % 8 + 1), hr]

/-! ## h after the kernel -/

/-- The product of an 8192 × 8192 by an 8192 × 1024 array of extended reals. -/
def matProd (X : S8192x8192.Idx → EReal) (Wm : S8192x1024.Idx → EReal) : S8192x1024.Idx → EReal := fun i =>
  ∑ f : Fin 8192, X (ix2 (i 0) f) * Wm (ix2 f (i 1))

/-- The product x · W of the arrays the region is entered with, as the contents of h's buffer. -/
def hProd (c : Dev nD) : S8192x1024.Idx → EReal := matProd (V c main_v0) (V c main_v1)

/-- Eight blocks of 1024 are the whole contraction. -/
theorem blocks_all (X : S8192x8192.Idx → EReal) (Wm : S8192x1024.Idx → EReal) (r : Fin 8192) (q : Fin 1024) :
    ∑ s ∈ Finset.range 8, blockTerm X Wm r q s = ∑ f : Fin 8192, X (ix2 r f) * Wm (ix2 f q) := by
  have h := Cert.LibBlockSum.sum_range_blocks (β := EReal) 8 1024 (fun k : Fin (8 * 1024) => X (ix2 r ⟨k.val, k.isLt⟩) * Wm (ix2 ⟨k.val, k.isLt⟩ q))
    (blockTerm X Wm r q) (fun s => by
      unfold blockTerm
      rw [dif_pos s.isLt]
      refine Finset.sum_congr rfl fun j _ => ?_
      have e : colOf s.val s.isLt j = ⟨(Cert.LibBlockSum.blockIdx s j).val, (Cert.LibBlockSum.blockIdx s j).isLt⟩ :=
        Fin.ext (by rw [Cert.LibBlockSum.blockIdx_val]; unfold colOf; show 1024 * s.val + j.val = j.val + 1024 * s.val; omega)
      rw [e])
  exact h

/-- What a point with k = 7 writes back is its block of x · W. -/
theorem flushed0_eq (c : Dev nD) (t : Fin cfg0.N) (hf : (cfg0.win 2).flush t = true) :
    (dat0 V c).flushed 2 t = ((cfg0.win 2).blk t).view.read (Elt Ideal) (hProd V c) := by
  have h7 : t.val % 8 = 7 := (flush0_2 t).mp hf
  show (cfg0.win 2).cut (grid0.coords t) ((dat0 V c).after 2 t) = _
  rw [after0_2]
  funext y
  obtain ⟨p, q, rfl⟩ : ∃ (p q : Fin 1024), y = ix2 p q := ⟨y 0, y 1, eq_ix2 y⟩
  show k0_pay3 (acc0 V c t.val t.isLt) (ix2 p q) = hProd V c (((cfg0.win 2).blk t).view.emb (ix2 p q))
  rw [pay3_apply, acc0_closed V c t.val t.isLt p q, h7, blocks_all]
  unfold hProd matProd
  obtain ⟨e0, e1⟩ := idx0_2 t
  have r0 : (((cfg0.win 2).blk t).view.emb (ix2 p q)) 0 = rowOf t.val (lt64 t) p :=
    Fin.ext (by show win0_2.index t (0 : Fin 2) * 1024 + 1 * p.val = 1024 * (t.val / 8) + p.val; rw [e0]; omega)
  have r1 : (((cfg0.win 2).blk t).view.emb (ix2 p q)) 1 = q :=
    Fin.ext (by show win0_2.index t (1 : Fin 2) * 1024 + 1 * q.val = q.val; rw [e1]; omega)
  rw [r0, r1]

/-- The blocks written back at the points with k = 7 tile h, so h ends as x · W. -/
theorem final0 (c : Dev nD) : (dat0 V c).arrAt 2 cfg0.N = hProd V c :=
  (dat0 V c).arrAt_eq_of_cover 2 (hProd V c) (flushed0_eq V c) fun i => by
    have hi0 : (i 0).val < 8192 := (i 0).isLt
    have hi1 : (i 1).val < 1024 := (i 1).isLt
    have ht : 8 * ((i 0).val / 1024) + 7 < cfg0.N := by rw [show cfg0.N = 64 from N_0]; omega
    refine ⟨⟨8 * ((i 0).val / 1024) + 7, ht⟩, (flush0_2 _).mpr (by show (8 * ((i 0).val / 1024) + 7) % 8 = 7; omega), ?_⟩
    show i ∈ ((View.whole main_v2).slice (win0_2.rect ⟨8 * ((i 0).val / 1024) + 7, ht⟩)).set
    rw [View.set_slice_whole, Rect.mem_set_unit]
    obtain ⟨e0, e1⟩ := idx0_2 ⟨8 * ((i 0).val / 1024) + 7, ht⟩
    intro a
    match a with
    | ⟨0, _⟩ =>
      show win0_2.index ⟨8 * ((i 0).val / 1024) + 7, ht⟩ (0 : Fin 2) * 1024 ≤ (i 0).val ∧ (i 0).val < win0_2.index ⟨8 * ((i 0).val / 1024) + 7, ht⟩ (0 : Fin 2) * 1024 + 1024
      rw [e0]; show (8 * ((i 0).val / 1024) + 7) / 8 * 1024 ≤ (i 0).val ∧ (i 0).val < (8 * ((i 0).val / 1024) + 7) / 8 * 1024 + 1024; omega
    | ⟨1, _⟩ =>
      show win0_2.index ⟨8 * ((i 0).val / 1024) + 7, ht⟩ (1 : Fin 2) * 1024 ≤ (i 1).val ∧ (i 1).val < win0_2.index ⟨8 * ((i 0).val / 1024) + 7, ht⟩ (1 : Fin 2) * 1024 + 1024
      rw [e1]; omega

end Cert.KernelIdeal.Hand

end
-- ==== Proof.IdealValue1.lean ====
/-
  What the second kernel leaves in the result, at the exact instance: entry (r, s) is max(Σ_k h(r, k) · W(s, k) + b(s), 0)
  of the arrays the region is entered with — h, W and the bias laid out as one row. Point (i, j) of the 8 × 8 grid reads
  row block i of h, row block j of W and lane block j of the bias row, and writes block (i, j) of the result; the 64 blocks
  tile the result.
-/
import proofs.«172477_j19095424598682_1_alg».proof.Proof.IdealRegion1
import proofs.«172477_j19095424598682_1_alg».proof.Proof.LibMatmul2d
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! ## The body's value at an index -/

theorem pay_second_apply (x0 x1 : Vec Ideal S1024x1024 .bf16) (x2 : Vec Ideal S1x1024 .f32) (p q : Fin 1024) :
    k1_pay1 x0 x1 x2 (ix2 p q) = max (∑ k : Fin 1024, x0 (ix2 p k) * x1 (ix2 q k) + x2 (ix2 (0 : Fin 1) q)) 0 := by
  unfold k1_pay1
  simp only [shapeCast_self]
  rw [maximumf_apply, addf_apply, broadcast_apply]
  rw [show dot_S1024x1024_S1024x1024_S1024x1024_1_1_0_0_n_n = DotDims.transposedRhs 1024 1024 1024 from rfl]
  rw [broadcastTo_apply x2 broadcasts_S1x1024_S1024x1024 (ix2 p q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])]
  have hm := Cert.LibMatmul2d.matmul_transposedRhs_apply (φ₁ := .bf16) (φ₂ := .bf16) x0 x1 p q
  have hzero : (FloatOps.ofBits (F := Ideal) .f32 0x00000000#32 : EReal) = 0 := Ideal.ofBits_zero_f32
  rw [hzero]
  exact congrArg (fun z => max (z + x2 (ix2 (0 : Fin 1) q)) 0) hm

/-! ## The blocks, read off the arrays the region is entered with -/

/-- Point `t` is (t / 8, t % 8): h's block is (t / 8, 0), W's is (t % 8, 0), the bias row's is (0, t % 8), the result's
    is (t / 8, t % 8). -/
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx1_2 : ∀ t : Fin cfg1.N, win1_2.index t (0 : Fin 2) = 0 ∧ win1_2.index t (1 : Fin 2) = t.val % 8 :=
  (by decide +kernel : ∀ t : Fin grid1.N, win1_2.index t (0 : Fin 2) = 0 ∧ win1_2.index t (1 : Fin 2) = t.val % 8)
theorem idx1_3 : ∀ t : Fin cfg1.N, win1_3.index t (0 : Fin 2) = t.val / 8 ∧ win1_3.index t (1 : Fin 2) = t.val % 8 :=
  (by decide +kernel : ∀ t : Fin grid1.N, win1_3.index t (0 : Fin 2) = t.val / 8 ∧ win1_3.index t (1 : Fin 2) = t.val % 8)

theorem lt64' (t : Fin cfg1.N) : t.val < 64 := lt_of_lt_of_eq t.isLt (show cfg1.N = 64 from N_1)

/-- Row `p` of row block `t / 8`, and entry `q` of block `t % 8`, as indices of a long axis. -/
def rowBlk (n : ℕ) (hn : n < 64) (p : Fin 1024) : Fin 8192 := ⟨1024 * (n / 8) + p.val, by omega⟩
def colBlk (n : ℕ) (q : Fin 1024) : Fin 8192 := ⟨1024 * (n % 8) + q.val, by omega⟩

theorem iblk1_0_apply (c : Dev nD) (t : Fin cfg1.N) (p k : Fin 1024) :
    iblk1 V c 0 t (ix2 p k) = (V c main_v2 : S8192x1024.Idx → EReal) (ix2 (rowBlk t.val (lt64' t) p) k) := by
  unfold iblk1
  show (V c main_v2 : S8192x1024.Idx → EReal) (((cfg1.win 0).blk t).view.emb (ix2 p k)) = _
  refine congrArg _ (funext fun a => Fin.ext ?_)
  obtain ⟨e0, e1⟩ := idx1_0 t
  match a with
  | ⟨0, _⟩ => show win1_0.index t (0 : Fin 2) * 1024 + 1 * p.val = 1024 * (t.val / 8) + p.val; rw [e0]; omega
  | ⟨1, _⟩ => show win1_0.index t (1 : Fin 2) * 1024 + 1 * k.val = k.val; rw [e1]; omega

theorem iblk1_1_apply (c : Dev nD) (t : Fin cfg1.N) (q k : Fin 1024) :
    iblk1 V c 1 t (ix2 q k) = (V c main_v1 : S8192x1024.Idx → EReal) (ix2 (colBlk t.val q) k) := by
  unfold iblk1
  show (V c main_v1 : S8192x1024.Idx → EReal) (((cfg1.win 1).blk t).view.emb (ix2 q k)) = _
  refine congrArg _ (funext fun a => Fin.ext ?_)
  obtain ⟨e0, e1⟩ := idx1_1 t
  match a with
  | ⟨0, _⟩ => show win1_1.index t (0 : Fin 2) * 1024 + 1 * q.val = 1024 * (t.val % 8) + q.val; rw [e0]; omega
  | ⟨1, _⟩ => show win1_1.index t (1 : Fin 2) * 1024 + 1 * k.val = k.val; rw [e1]; omega

theorem iblk1_2_apply (c : Dev nD) (t : Fin cfg1.N) (q : Fin 1024) :
    iblk1 V c 2 t (ix2 (0 : Fin 1) q) = (V c main_v3 : S1x8192.Idx → EReal) (ix2 (0 : Fin 1) (colBlk t.val q)) := by
  unfold iblk1
  show (V c main_v3 : S1x8192.Idx → EReal) (((cfg1.win 2).blk t).view.emb (ix2 (0 : Fin 1) q)) = _
  refine congrArg _ (funext fun a => Fin.ext ?_)
  obtain ⟨e0, e1⟩ := idx1_2 t
  match a with
  | ⟨0, _⟩ => show win1_2.index t (0 : Fin 2) * 1 + 1 * 0 = 0; rw [e0]
  | ⟨1, _⟩ => show win1_2.index t (1 : Fin 2) * 1024 + 1 * q.val = 1024 * (t.val % 8) + q.val; rw [e1]; omega

/-! ## The result after the kernel -/

/-- max(H · Wmᵀ + B, 0) for 8192 × 1024 arrays H, Wm and a bias row B of extended reals. -/
def reluProd (H Wm : S8192x1024.Idx → EReal) (B : S1x8192.Idx → EReal) : S8192x8192.Idx → EReal := fun i =>
  max (∑ k : Fin 1024, H (ix2 (i 0) k) * Wm (ix2 (i 1) k) + B (ix2 (0 : Fin 1) (i 1))) 0

/-- max(h · Wᵀ + bias, 0) of the arrays the region is entered with, as the contents of the result's buffer. -/
def outRelu (c : Dev nD) : S8192x8192.Idx → EReal := reluProd (V c main_v2) (V c main_v1) (V c main_v3)

/-- What point `t` writes back is its block of that array. -/
theorem flushed1_eq (c : Dev nD) (t : Fin cfg1.N) (hf : (cfg1.win 3).flush t = true) :
    (dat1 V c).flushed 3 t = ((cfg1.win 3).blk t).view.read (Elt Ideal) (outRelu V c) := by
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  show k1_pay1 (iblk1 V c 0 t) (iblk1 V c 1 t) (iblk1 V c 2 t) (ix2 p q) = outRelu V c (((cfg1.win 3).blk t).view.emb (ix2 p q))
  rw [pay_second_apply]
  unfold outRelu reluProd
  obtain ⟨e0, e1⟩ := idx1_3 t
  have r0 : (((cfg1.win 3).blk t).view.emb (ix2 p q)) 0 = rowBlk t.val (lt64' t) p :=
    Fin.ext (by show win1_3.index t (0 : Fin 2) * 1024 + 1 * p.val = 1024 * (t.val / 8) + p.val; rw [e0]; omega)
  have r1 : (((cfg1.win 3).blk t).view.emb (ix2 p q)) 1 = colBlk t.val q :=
    Fin.ext (by show win1_3.index t (1 : Fin 2) * 1024 + 1 * q.val = 1024 * (t.val % 8) + q.val; rw [e1]; omega)
  rw [r0, r1, iblk1_2_apply]
  refine congrArg (fun z => max (z + _) 0) (Finset.sum_congr rfl fun k _ => ?_)
  rw [iblk1_0_apply, iblk1_1_apply]

/-- The 64 blocks tile the result, so it ends as that array. -/
theorem final1 (c : Dev nD) : (dat1 V c).arrAt 3 cfg1.N = outRelu V c :=
  (dat1 V c).arrAt_eq_of_cover 3 (outRelu V c) (flushed1_eq V c) fun i => by
    have hi0 : (i 0).val < 8192 := (i 0).isLt
    have hi1 : (i 1).val < 8192 := (i 1).isLt
    have ht : 8 * ((i 0).val / 1024) + (i 1).val / 1024 < cfg1.N := by rw [show cfg1.N = 64 from N_1]; omega
    refine ⟨⟨8 * ((i 0).val / 1024) + (i 1).val / 1024, ht⟩, flush1_3 _, ?_⟩
    show i ∈ ((View.whole main_v4).slice (win1_3.rect ⟨8 * ((i 0).val / 1024) + (i 1).val / 1024, ht⟩)).set
    rw [View.set_slice_whole, Rect.mem_set_unit]
    obtain ⟨e0, e1⟩ := idx1_3 ⟨8 * ((i 0).val / 1024) + (i 1).val / 1024, ht⟩
    intro a
    match a with
    | ⟨0, _⟩ =>
      show win1_3.index ⟨8 * ((i 0).val / 1024) + (i 1).val / 1024, ht⟩ (0 : Fin 2) * 1024 ≤ (i 0).val ∧ (i 0).val < win1_3.index ⟨8 * ((i 0).val / 1024) + (i 1).val / 1024, ht⟩ (0 : Fin 2) * 1024 + 1024
      rw [e0]; show (8 * ((i 0).val / 1024) + (i 1).val / 1024) / 8 * 1024 ≤ (i 0).val ∧ (i 0).val < (8 * ((i 0).val / 1024) + (i 1).val / 1024) / 8 * 1024 + 1024; omega
    | ⟨1, _⟩ =>
      show win1_3.index ⟨8 * ((i 0).val / 1024) + (i 1).val / 1024, ht⟩ (1 : Fin 2) * 1024 ≤ (i 1).val ∧ (i 1).val < win1_3.index ⟨8 * ((i 0).val / 1024) + (i 1).val / 1024, ht⟩ (1 : Fin 2) * 1024 + 1024
      rw [e1]; show (8 * ((i 0).val / 1024) + (i 1).val / 1024) % 8 * 1024 ≤ (i 1).val ∧ (i 1).val < (8 * ((i 0).val / 1024) + (i 1).val / 1024) % 8 * 1024 + 1024; omega

end Cert.KernelIdeal.Hand

end
-- ==== Proof.IdealBridge.lean ====
/-
  Both programs compute, entry by entry on the extended reals,

      out(r, s) = max( Σ_k ( Σ_f x(r, f) · W(f, k) ) · W(s, k) + b(s), 0 ).

  The reference says so directly: two contractions, the bias broadcast along the rows, a maximum against zero. The kernel
  converts x and W to a narrower float format (the identity at the exact instance), computes h = x · W by the first
  kernel — whose eight partial sums per entry regroup to the whole contraction —, lays the bias out as one row, and
  computes max(h · Wᵀ + bias, 0) by the second. No step needs an entry to be finite.
-/
import proofs.«172477_j19095424598682_1_alg».proof.Proof.IdealRun
import proofs.«172477_j19095424598682_1_alg».proof.Proof.IdealValue0
import proofs.«172477_j19095424598682_1_alg».proof.Proof.IdealValue1
import proofs.«172477_j19095424598682_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Idealize.ShloMosaic.StableHlo

/-! ## The common value -/

/-- The bias vector laid out as one row. -/
def biasRow (b : S8192.Idx → EReal) : S1x8192.Idx → EReal := fun j => b (ix1 (j 1))

/-- out = max((x · W) · Wᵀ + b, 0), index by index. -/
def outSpec (x : S8192x8192.Idx → EReal) (W : S8192x1024.Idx → EReal) (b : S8192.Idx → EReal) : S8192x8192.Idx → EReal :=
  reluProd (matProd x W) W (biasRow b)

/-! ## The reference computes it -/

theorem ref_eq (x0 : (⟨Cert.ReferenceIdeal.S8192x8192, .f32⟩ : BufTy).Contents (Elt Ideal))
    (x1 : (⟨Cert.ReferenceIdeal.S8192x1024, .f32⟩ : BufTy).Contents (Elt Ideal))
    (x2 : (⟨Cert.ReferenceIdeal.S8192, .f32⟩ : BufTy).Contents (Elt Ideal)) :
    Cert.ReferenceIdeal.Read.val_main_v5 (F := Ideal) x0 x1 x2 = outSpec x0 x1 x2 := by
  funext i
  have e1 : ∀ (k : Fin 1024) (f : Fin 8192), Cert.ReferenceIdeal.Read.lidx_main_v0 (Cert.ReferenceIdeal.Read.lidx_main_v1 i k) f = ix2 (i 0) f :=
    fun k f => funext fun a => match a with | ⟨0, _⟩ => rfl | ⟨1, _⟩ => rfl
  have e2 : ∀ (k : Fin 1024) (f : Fin 8192), Cert.ReferenceIdeal.Read.ridx_main_v0 (Cert.ReferenceIdeal.Read.lidx_main_v1 i k) f = ix2 f k :=
    fun k f => funext fun a => match a with | ⟨0, _⟩ => rfl | ⟨1, _⟩ => rfl
  have e3 : ∀ k : Fin 1024, Cert.ReferenceIdeal.Read.ridx_main_v1 i k = ix2 (i 1) k :=
    fun k => funext fun a => match a with | ⟨0, _⟩ => rfl | ⟨1, _⟩ => rfl
  have e4 : Cert.ReferenceIdeal.Read.idx_main_v2 (Cert.ReferenceIdeal.Read.idx_main_v3 i) = ix1 (i 1) :=
    funext fun a => match a with | ⟨0, _⟩ => rfl
  rw [Cert.ReferenceIdeal.Read.val_main_v5_apply, Cert.ReferenceIdeal.Read.val_main_v4_apply, Cert.ReferenceIdeal.Read.val_main_v1_apply,
    Cert.ReferenceIdeal.Read.val_main_v3_apply, Cert.ReferenceIdeal.Read.val_main_v2_apply, Cert.ReferenceIdeal.Read.val_main_call0_v0_apply,
    Cert.ReferenceIdeal.Read.val_main_call0_cst_apply]
  simp only [Cert.ReferenceIdeal.Read.val_main_v0_apply, e1, e2, e3, e4]
  have hzero : (FloatOps.ofBits (F := Ideal) .f32 0x00000000#32 : EReal) = 0 := Ideal.ofBits_zero_f32
  rw [hzero]
  rfl

/-! ## The kernel computes it -/

variable (m : (ℓ : Loc nD τ sig) → Buf (Elt Ideal) ℓ)

/-- The converted copies of x and W hold x and W. -/
theorem conv_x (c : Dev nD) : V1 m c main_v0 = m ((c : Thread nD τ).loc main_arg0) := by
  show StableHlo.after hostOps0 (W0 m c) (Proc.devRef .tc main_v0) = _
  after_results
  rfl
theorem conv_w (c : Dev nD) : V1 m c main_v1 = m ((c : Thread nD τ).loc main_arg1) := by
  show StableHlo.after hostOps0 (W0 m c) (Proc.devRef .tc main_v1) = _
  after_results
  rfl

/-- The second kernel finds h at x · W, -/
theorem entry_h (c : Dev nD) : V3 m c main_v2 = hProd (V1 m) c := by
  have h1 : W3 m c (Proc.devRef .tc main_v2) = W2 m c (Proc.devRef .tc main_v2) :=
    StableHlo.after_of_writes_sub hostOps1 (W2 m c) hostOps1_writes (by decide)
  exact h1.trans ((W2_arr m c 2).trans (final0 (V1 m) c))

/-- W's converted copy as the first kernel found it (an operand is never written), -/
theorem entry_w (c : Dev nD) : V3 m c main_v1 = V1 m c main_v1 := by
  have h1 : W3 m c (Proc.devRef .tc main_v1) = W2 m c (Proc.devRef .tc main_v1) :=
    StableHlo.after_of_writes_sub hostOps1 (W2 m c) hostOps1_writes (by decide)
  exact h1.trans ((W2_arr m c 1).trans (((dat0 (V1 m) c).arrAt_in 1 rfl _).trans (A_eq0 (V1 m) c 1)))

/-- and the bias as one row. -/
theorem entry_b (c : Dev nD) : V3 m c main_v3 = biasRow (m ((c : Thread nD τ).loc main_arg2)) := by
  have hb : W2 m c (Proc.devRef .tc main_arg2) = m ((c : Thread nD τ).loc main_arg2) :=
    (W2_of_ne m c main_arg2 (by decide)).trans ((StableHlo.after_of_writes_sub hostOps0 (W0 m c) hostOps0_writes (by decide)).trans rfl)
  show StableHlo.after hostOps1 (W2 m c) (Proc.devRef .tc main_v3) = _
  after_results
  rw [hb]
  funext j
  unfold biasRow
  refine shapeCast_apply _ _ j (ix1 (j 1)) ?_
  show ((⟨1, ![8192]⟩ : Shape).rowMajor (ix1 ((j : S1x8192.Idx) 1))).val = ((⟨2, ![1, 8192]⟩ : Shape).rowMajor (j : S1x8192.Idx)).val
  rw [Shape.rowMajor_val_one, Shape.rowMajor_val_two]
  have h0 : ((j : S1x8192.Idx) 0).val < 1 := ((j : S1x8192.Idx) 0).isLt
  show ((j : S1x8192.Idx) 1).val = ((j : S1x8192.Idx) 0).val * 8192 + ((j : S1x8192.Idx) 1).val
  omega

/-- The result's buffer ends holding the common value of the arguments. -/
theorem kernel_value (c : Dev nD) :
    W4 m c (Proc.devRef .tc main_v4)
      = outSpec (m ((c : Thread nD τ).loc main_arg0)) (m ((c : Thread nD τ).loc main_arg1)) (m ((c : Thread nD τ).loc main_arg2)) := by
  refine ((W4_arr m c 3).trans (final1 (V3 m) c)).trans ?_
  unfold outRelu outSpec
  rw [entry_h, entry_w, entry_b]
  unfold hProd
  rw [conv_x, conv_w]

end Cert.KernelIdeal.Hand

end
-- ==== Proof.lean ====
/-
  A two-layer map out = max((x · W) · Wᵀ + b, 0) on x : [8192, 8192], W : [8192, 1024], b : [8192], computed by two
  pipelined kernels, against the same map written as two contractions, a bias and a maximum on the host.

  * Frames. The kernel program is four steps — convert x and W to a narrower format; the first kernel (h = x · W, a block
    of h accumulated over eight steps in a buffer the kernel keeps between grid points); reshape b to a row; the second
    kernel (max(h · Wᵀ + b, 0), one block per grid point) — and each step's effect on the buffers is known: a host step
    writes its result buffers, a kernel writes only its result array. So every execution ends, nothing faults, and x, W
    and b end as launched. This holds for any float instance, so both for the program as printed and for its reading
    over the extended reals. The reference is a straight line of host operations.
  * The idealization rewrote nothing, so there is nothing to preserve.
  * Values. At the exact instance format conversions are the identity and every sum is an exact sum on the extended
    reals. The first kernel's eight partial sums per entry regroup to the contraction over all 8192 indices (addition
    on the extended reals is associative and commutative; nothing needs to be finite), so h = x · W; the second
    kernel's block (i, j) is block (i, j) of max(h · Wᵀ + b, 0). The reference's two contractions, broadcast bias and
    maximum against zero are the same function, index by index.
-/
import proofs.«172477_j19095424598682_1_alg».proof.Defs
import proofs.«172477_j19095424598682_1_alg».proof.Proof.Gen.Kernel
import proofs.«172477_j19095424598682_1_alg».proof.Proof.Gen.KernelIdeal
import proofs.«172477_j19095424598682_1_alg».proof.Proof.Gen.ReferenceIdeal
import proofs.«172477_j19095424598682_1_alg».proof.Proof.Gen.Pre_finite_inputs
import proofs.«172477_j19095424598682_1_alg».proof.Proof.Gen.ReferenceIdeal.Run
import proofs.«172477_j19095424598682_1_alg».proof.Proof.Gen.ReferenceIdeal.Read
import proofs.«172477_j19095424598682_1_alg».proof.Proof.BitsRun
import proofs.«172477_j19095424598682_1_alg».proof.Proof.IdealBridge
import Idealize.ShloMosaic.Adequacy
import Idealize.ShloMosaic.Init

noncomputable section

namespace Cert.Proof

open Idealize.ShloMosaic Idealize.ShloMosaic.TcCoe Idealize.SL.Sem

/-- The program as printed runs to the end and leaves its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both runs end with the result at max((x · W) · Wᵀ + b, 0) of the arguments, which agree. -/
theorem algebraic : Cert.algebraic_KernelIdeal_ReferenceIdeal := by
  intro m ρ m' ρ' _ hagree
  refine ⟨fun c => Cert.KernelIdeal.Hand.outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c _ (Cert.KernelIdeal.Hand.mem_uc Cert.KernelIdeal.main_v4 (by decide))).trans (Cert.KernelIdeal.Hand.kernel_value m c),
       (h c _ (Cert.KernelIdeal.Hand.mem_uc Cert.KernelIdeal.main_arg0 (by decide))).trans (Cert.KernelIdeal.Hand.W4_kept m c Cert.KernelIdeal.main_arg0 (by decide) (by decide) (by decide) (by decide)),
       (h c _ (Cert.KernelIdeal.Hand.mem_uc Cert.KernelIdeal.main_arg1 (by decide))).trans (Cert.KernelIdeal.Hand.W4_kept m c Cert.KernelIdeal.main_arg1 (by decide) (by decide) (by decide) (by decide)),
       (h c _ (Cert.KernelIdeal.Hand.mem_uc Cert.KernelIdeal.main_arg2 (by decide))).trans (Cert.KernelIdeal.Hand.W4_kept m c Cert.KernelIdeal.main_arg2 (by decide) (by decide) (by decide) (by decide))⟩)
      (Cert.KernelIdeal.Hand.run_all m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.KernelIdeal.Hand.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
